-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1000000 : Shape := ⟨2, ![2, 1000000]⟩
abbrev S1000000x64 : Shape := ⟨2, ![1000000, 64]⟩
abbrev S64x64 : Shape := ⟨2, ![64, 64]⟩
abbrev S64 : Shape := ⟨1, ![64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x128 .f32) (main_arg6 : FVec F S64 .f32) (main_arg7 : FVec F S64x128 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x1000000 32) (main_arg2 : FVec F S1000000x64 .f32) (main_arg3 : FVec F S64x64 .f32) (main_arg4 : FVec F S64 .f32) (main_arg5 : FVec F S64x128 .f32) (main_arg6 : FVec F S64 .f32) (main_arg7 : FVec F S64x128 .f32) (main_arg8 : FVec F S64 .f32) (main_arg9 : FVec F S64x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x1000000 : Shape := ⟨2, ![2, 1000000]⟩
abbrev S1000000x64 : Shape := ⟨2, ![1000000, 64]⟩
abbrev S64x64 : Shape := ⟨2, ![64, 64]⟩
abbrev S64 : Shape := ⟨1, ![64]⟩
abbrev S64x128 : Shape := ⟨2, ![64, 128]⟩
abbrev S128x64 : Shape := ⟨2, ![128, 64]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S128x128 : Shape := ⟨2, ![128, 128]⟩
abbrev S128 : Shape := ⟨1, ![128]⟩
abbrev S1x128 : Shape := ⟨2, ![1, 128]⟩
abbrev S500000x128 : Shape := ⟨2, ![500000, 128]⟩
abbrev S4000x128 : Shape := ⟨2, ![4000, 128]⟩

abbrev nBuf : Space → Nat
  | .hbm => 60
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x1000000, .i32⟩
  | .hbm, ⟨2, _⟩ => ⟨S1000000x64, .f32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S128x64, .f32⟩
  | .hbm, ⟨12, _⟩ => ⟨S128x64, .f32⟩
  | .hbm, ⟨13, _⟩ => ⟨S1x64, .f32⟩
  | .hbm, ⟨14, _⟩ => ⟨S1x64, .f32⟩
  | .hbm, ⟨15, _⟩ => ⟨S50000x64, .f32⟩
  | .hbm, ⟨16, _⟩ => ⟨S50000x64, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S1000000x64, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S64x64, .f32⟩
  | .hbm, ⟨44, _⟩ => ⟨S64x128, .f32⟩
  | .hbm, ⟨45, _⟩ => ⟨S64x128, .f32⟩
  | .hbm, ⟨46, _⟩ => ⟨S128x128, .f32⟩
  | .hbm, ⟨47, _⟩ => ⟨S_, .f32⟩
  | .hbm, ⟨48, _⟩ => ⟨S64x64, .f32⟩
  | .hbm, ⟨49, _⟩ => ⟨S64x128, .f32⟩
  | .hbm, ⟨50, _⟩ => ⟨S64x128, .f32⟩
  | .hbm, ⟨51, _⟩ => ⟨S128x128, .f32⟩
  | .hbm, ⟨52, _⟩ => ⟨S128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S500000x128, .f32⟩
  | .hbm, ⟨57, _⟩ => ⟨S500000x128, .f32⟩
  | .hbm, ⟨58, _⟩ => ⟨S500000x128, .f32⟩
  | .hbm, ⟨59, _⟩ => ⟨S1000000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S128x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  shapeCasts_S1000000x64_S500000x128 : S1000000x64.ShapeCasts S500000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S500000x128_S1000000x64 : S500000x128.ShapeCasts S1000000x64
  dot_S5000x128_S128x64_S5000x64_1_0_0_1_n_n_wf : DotDims.WF S5000x128 S128x64 S5000x64 [1] [0] [0] [1] [] []
  gather_S50000x64_S1000000x1_S1000000x64_1_0_n_n_0_1_164_wf : GatherDims.WF S50000x64 S1000000x1 S1000000x64 [1] [0] [] [0] [] 1 ![1, 64]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S500000x128.size a
  hwx1_0 : ∀ i : grid1.Coords, EltTy.bits .f32 = 32 ∨ (Rect.block (s := S500000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S500000x128.size a
  hwx1_1 : ∀ i : grid1.Coords, EltTy.bits .f32 = 32 ∨ (Rect.block (s := S500000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S500000x128.size a
  hwx1_6 : ∀ i : grid1.Coords, EltTy.bits .f32 = 32 ∨ (Rect.block (s := S500000x128) S4000x128.size (cc1_transform_6 i) (hinb1_6 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1000000 : Shape := ⟨2, ![2, 1000000]⟩
abbrev S1000000x64 : Shape := ⟨2, ![1000000, 64]⟩
abbrev S64x64 : Shape := ⟨2, ![64, 64]⟩
abbrev S64 : Shape := ⟨1, ![64]⟩
abbrev S64x128 : Shape := ⟨2, ![64, 128]⟩
abbrev S128x64 : Shape := ⟨2, ![128, 64]⟩
abbrev S50000x64 : Shape := ⟨2, ![50000, 64]⟩
abbrev S1x64 : Shape := ⟨2, ![1, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩

abbrev nBuf : Space → Nat
  | .hbm => 72
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1000000, .i32⟩
  | .hbm, ⟨2, _⟩ => ⟨S1000000x64, .f32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S128x64, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S128x64, .f32⟩
  | .hbm, ⟨17, _⟩ => ⟨S50000x64, .f32⟩
  | .hbm, ⟨18, _⟩ => ⟨S1x64, .f32⟩
  | .hbm, ⟨19, _⟩ => ⟨S50000x64, .f32⟩
  | .hbm, ⟨20, _⟩ => ⟨S50000x64, .f32⟩
  | .hbm, ⟨21, _⟩ => ⟨S64x64, .f32⟩
  | .hbm, ⟨22, _⟩ => ⟨S1000000x64, .f32⟩
  | .hbm, ⟨23, _⟩ => ⟨S1x64, .f32⟩
  | .hbm, ⟨24, _⟩ => ⟨S1000000x64, .f32⟩
  | .hbm, ⟨25, _⟩ => ⟨S1000000x64, .f32⟩
  | .hbm, ⟨26, _⟩ => ⟨S1x1000000, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S1000000x64, .f32⟩
  | .hbm, ⟨38, _⟩ => ⟨S1x1000000, .i32⟩
  | .hbm, ⟨39, _⟩ => ⟨S1000000, .i32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x64, .f32⟩
  | .hbm, ⟨49, _⟩ => ⟨S1000000x64, .f32⟩
  | .hbm, ⟨50, _⟩ => ⟨S1000000x64, .f32⟩
  | .hbm, ⟨51, _⟩ => ⟨S1000000x64, .f32⟩
  | .hbm, ⟨52, _⟩ => ⟨S_, .f32⟩
  | .hbm, ⟨53, _⟩ => ⟨S1000000x64, .f32⟩
  | .hbm, ⟨54, _⟩ => ⟨S1000000x64, .f32⟩
  | .hbm, ⟨55, _⟩ => ⟨S1000000x64, .f32⟩
  | .hbm, ⟨56, _⟩ => ⟨S_, .f32⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S_, .f32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S1000000x64, .f32⟩
  | .hbm, ⟨65, _⟩ => ⟨S1000000x64, .f32⟩
  | .hbm, ⟨66, _⟩ => ⟨S1000000x64, .f32⟩
  | .hbm, ⟨67, _⟩ => ⟨S64x64, .f32⟩
  | .hbm, ⟨68, _⟩ => ⟨S1000000x64, .f32⟩
  | .hbm, ⟨69, _⟩ => ⟨S1x64, .f32⟩
  | .hbm, ⟨70, _⟩ => ⟨S1000000x64, .f32⟩
  | .hbm, ⟨71, _⟩ => ⟨S1000000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  bcast_S1x64_S1000000x64_0_1 : S1x64.BroadcastsInDim S1000000x64 (![0, 1] : Fin 2 → Fin S1000000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S1000000x64 : S_.BroadcastsInDim S1000000x64 (![] : Fin 0 → Fin S1000000x64.rank)
  dot_S50000x128_S128x64_S50000x64_1_0_0_1_n_n_wf : DotDims.WF S50000x128 S128x64 S50000x64 [1] [0] [0] [1] [] []
  dot_S1000000x64_S64x64_S1000000x64_1_0_0_1_n_n_wf : DotDims.WF S1000000x64 S64x64 S1000000x64 [1] [0] [0] [1] [] []
  gather_S50000x64_S1000000x1_S1000000x64_1_0_n_n_0_1_164_wf : GatherDims.WF S50000x64 S1000000x1 S1000000x64 [1] [0] [] [0] [] 1 ![1, 64]

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf

class Facts : Prop extends Facts₀ where

variable [Facts]
-- ==== Proof.KernelRun.lean ====
/-
  The idealized kernel's run with its result named.

  The program is five segments: the host operations that transpose the two node weights and lay the two node biases
  out as rows; the node-projection call; the host operations that gather and add the projected rows, build the two
  block-diagonal weights and the doubled biases and pack two edges per row; the edge call; and the final unpacking
  reshape. Every weakly fair execution terminates without a fault, and in the final state every buffer the program
  does not scope holds the contents that the fold of these five segments over the launch memory gives it; in
  particular the result buffer holds that fold's value, and the eleven argument arrays are as launched.
-/
import proofs.«163496_j81973745812097_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v41) = W5 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v41 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Named

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.NodeProj.lean ====
/-
  The node-projection call, as one whole-array function.

  The call walks ten grid points; point t stages rows 5000 t … 5000 t + 4999 of the node features (all 128 columns),
  the whole transposed weight (128 × 64) and the bias row (1 × 64), and writes back rows 5000 t … 5000 t + 4999 of each
  of its two outputs. The body's value for an output block is, entry (r, e), the sum over k < 128 of
  features[r, k] · weight[k, e] plus bias[0, e] (the matrix product accumulates into the zero matrix; rounding the
  operands to bf16 is the identity on the extended reals). So the ten blocks are the restrictions of ONE function of the
  whole arrays, `proj`, and since the blocks tile the output it ends holding `proj` of the arrays as the call finds them.
-/
import proofs.«163496_j81973745812097_2_alg».proof.Proof.Gen.KernelIdeal.Frame
import proofs.«163496_j81973745812097_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeProj

open Cert.KernelIdeal Cert.KernelIdeal.Gen Idealize.ShloMosaic Idealize.ShloMosaic.TcCoe Idealize.ShloMosaic.ValueIdx Idealize.SL.Sem
open Idealize.ShloMosaic.Pipeline (Dat)

/-- Entry (r, e) of a projection: the row of `x` against the column of the transposed weight `w`, plus the bias. -/
def projAt (x : FVec Ideal S50000x128 .f32) (w : FVec Ideal S128x64 .f32) (b : FVec Ideal S1x64 .f32) (r : Fin 50000) (e : Fin 64) : Ideal .f32 :=
  (∑ k : Fin 128, x (ix2 r k) * w (ix2 k e)) + b (ix2 (0 : Fin 1) e)

/-- The projection as a whole array. -/
def proj (x : FVec Ideal S50000x128 .f32) (w : FVec Ideal S128x64 .f32) (b : FVec Ideal S1x64 .f32) : FVec Ideal S50000x64 .f32 :=
  fun i => projAt x w b ⟨(i 0).val, (i 0).isLt⟩ ⟨(i 1).val, (i 1).isLt⟩

theorem hz : (![0, 0] : Fin 2 → Nat) = fun _ => 0 := funext fun a => by fin_cases a <;> rfl

/-- The printed product's dimension record is the plain one. -/
theorem dot_plain : dot_S5000x128_S128x64_S5000x64_1_0_0_1_n_n = DotDims.plain 5000 128 64 := rfl

/-- The first output's block value at an entry of the block: a sum over the 128 feature columns plus the bias. -/
theorem pay2_at (x0 : Vec Ideal S5000x128 .f32) (x1 : Vec Ideal S128x64 .f32) (x2 : Vec Ideal S1x64 .f32) (r : Fin 5000) (e : Fin 64) :
    k0_pay2 x0 x1 x2 (ix2 r e) = (∑ k : Fin 128, x0 (ix2 r k) * x1 (ix2 k e)) + x2 (ix2 (0 : Fin 1) e) := by
  unfold k0_pay2 k0_pay1
  dsimp only
  rw [addf_apply, shapeCast_self, shapeCast_self]
  refine congrArg₂ (· + ·) ?_ ?_
  · exact matmul_plain_zero_apply _ dot_plain none _ _ r e
  · exact broadcastTo_1b_ab_apply x2 _ r e

/-- The second output's block value: the same with the other weight and bias. -/
theorem pay3_at (x0 : Vec Ideal S5000x128 .f32) (x3 : Vec Ideal S128x64 .f32) (x4 : Vec Ideal S1x64 .f32) (r : Fin 5000) (e : Fin 64) :
    k0_pay3 x0 x3 x4 (ix2 r e) = (∑ k : Fin 128, x0 (ix2 r k) * x3 (ix2 k e)) + x4 (ix2 (0 : Fin 1) e) := by
  unfold k0_pay3 k0_pay1
  dsimp only
  rw [addf_apply, shapeCast_self, shapeCast_self]
  refine congrArg₂ (· + ·) ?_ ?_
  · exact matmul_plain_zero_apply _ dot_plain none _ _ r e
  · exact broadcastTo_1b_ab_apply x4 _ r e

variable (V : (c : Dev nD) → (b : Ref sig .tc) → Buf (Elt Ideal) ((c : Thread nD τ).loc b))

/-- The index maps over the ten grid points: the features and both outputs move down one block of rows per point; the
    weights and biases stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK to the first output is block `t` of `proj` of the arrays as the call finds them. -/
theorem flushed5_eq (c : Dev nD) (t : Fin cfg0.N) :
    (dat0 V c).flushed 5 t = ((cfg0.win 5).blk t).view.read (Elt Ideal) (proj (V c main_arg0) (V c main_v0) (V c main_v2)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51, e60, e61⟩ := idx_facts t
  funext j
  obtain ⟨r, e, rfl⟩ : ∃ (r : Fin 5000) (e : Fin 64), j = ix2 r e := ⟨j 0, j 1, eq_ix2 j⟩
  refine (pay2_at _ _ _ r e).trans ?_
  show _ = projAt (V c main_arg0) (V c main_v0) (V c main_v2) _ _
  unfold projAt
  refine congrArg₂ (· + ·) (Finset.sum_congr rfl fun k _ => congrArg₂ (· * ·) ?_ ?_) ?_
  · show V c main_arg0 (((cfg0.win 0).blk t).view.emb (ix2 r k)) = V c main_arg0 _
    refine congrArg (V c main_arg0) (funext fun a => Fin.ext ?_)
    match a with
    | ⟨0, _⟩ => show win0_0.index t (0 : Fin 2) * 5000 + 1 * r.val = win0_5.index t (0 : Fin 2) * 5000 + 1 * r.val; rw [e00, e50]
    | ⟨1, _⟩ => show win0_0.index t (1 : Fin 2) * 128 + 1 * k.val = k.val; rw [e01]; omega
  · show V c main_v0 (((cfg0.win 1).blk t).view.emb (ix2 k e)) = V c main_v0 _
    refine congrArg (V c main_v0) (funext fun a => Fin.ext ?_)
    match a with
    | ⟨0, _⟩ => show win0_1.index t (0 : Fin 2) * 128 + 1 * k.val = k.val; rw [e10]; omega
    | ⟨1, _⟩ => show win0_1.index t (1 : Fin 2) * 64 + 1 * e.val = win0_5.index t (1 : Fin 2) * 64 + 1 * e.val; rw [e11, e51]
  · show V c main_v2 (((cfg0.win 2).blk t).view.emb (ix2 (0 : Fin 1) e)) = V c main_v2 _
    refine congrArg (V c main_v2) (funext fun a => Fin.ext ?_)
    match a with
    | ⟨0, _⟩ => show win0_2.index t (0 : Fin 2) * 1 + 1 * 0 = 0; rw [e20]
    | ⟨1, _⟩ => show win0_2.index t (1 : Fin 2) * 64 + 1 * e.val = win0_5.index t (1 : Fin 2) * 64 + 1 * e.val; rw [e21, e51]

/-- An index of the first output is in point `t`'s block iff each coordinate is in the block's range on its axis. -/
theorem mem_blk5 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v4_0).slice (win0_5.rect t)).set ↔ _
  rw [View.set_slice_whole, Rect.mem_set_unit]
  exact Iff.rfl

/-- Every row of the first output is in the block of the point numbered by the row's quotient by 5000. -/
theorem cover5 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨e00, e01, e10, e11, e20, e21, e30, e31, e40, e41, e50, e51, e60, e61⟩ := idx_facts t
  have ht : t.val = (i 0).val / 5000 := rfl
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; rw [e50, ht]; omega
  | ⟨1, _⟩ => show win0_5.index t (1 : Fin 2) * 64 ≤ (i 1).val ∧ (i 1).val < win0_5.index t (1 : Fin 2) * 64 + 64; rw [e51]; omega

/-- THE FIRST OUTPUT after the call: `proj` of the arrays as the call finds them. -/
theorem final5 (c : Dev nD) : (dat0 V c).arrAt 5 cfg0.N = proj (V c main_arg0) (V c main_v0) (V c main_v2) :=
  (dat0 V c).arrAt_eq_of_cover 5 _ (fun t _ => flushed5_eq V c t) cover5

/-- WHAT POINT `t` WRITES BACK to the second output is block `t` of `proj` of the arrays as the call finds them. -/
theorem flushed6_eq (c : Dev nD) (t : Fin cfg0.N) :
    (dat0 V c).flushed 6 t = ((cfg0.win 6).blk t).view.read (Elt Ideal) (proj (V c main_arg0) (V c main_v1) (V c main_v3)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51, e60, e61⟩ := idx_facts t
  funext j
  obtain ⟨r, e, rfl⟩ : ∃ (r : Fin 5000) (e : Fin 64), j = ix2 r e := ⟨j 0, j 1, eq_ix2 j⟩
  refine (pay3_at _ _ _ r e).trans ?_
  show _ = projAt (V c main_arg0) (V c main_v1) (V c main_v3) _ _
  unfold projAt
  refine congrArg₂ (· + ·) (Finset.sum_congr rfl fun k _ => congrArg₂ (· * ·) ?_ ?_) ?_
  · show V c main_arg0 (((cfg0.win 0).blk t).view.emb (ix2 r k)) = V c main_arg0 _
    refine congrArg (V c main_arg0) (funext fun a => Fin.ext ?_)
    match a with
    | ⟨0, _⟩ => show win0_0.index t (0 : Fin 2) * 5000 + 1 * r.val = win0_6.index t (0 : Fin 2) * 5000 + 1 * r.val; rw [e00, e60]
    | ⟨1, _⟩ => show win0_0.index t (1 : Fin 2) * 128 + 1 * k.val = k.val; rw [e01]; omega
  · show V c main_v1 (((cfg0.win 3).blk t).view.emb (ix2 k e)) = V c main_v1 _
    refine congrArg (V c main_v1) (funext fun a => Fin.ext ?_)
    match a with
    | ⟨0, _⟩ => show win0_3.index t (0 : Fin 2) * 128 + 1 * k.val = k.val; rw [e30]; omega
    | ⟨1, _⟩ => show win0_3.index t (1 : Fin 2) * 64 + 1 * e.val = win0_6.index t (1 : Fin 2) * 64 + 1 * e.val; rw [e31, e61]
  · show V c main_v3 (((cfg0.win 4).blk t).view.emb (ix2 (0 : Fin 1) e)) = V c main_v3 _
    refine congrArg (V c main_v3) (funext fun a => Fin.ext ?_)
    match a with
    | ⟨0, _⟩ => show win0_4.index t (0 : Fin 2) * 1 + 1 * 0 = 0; rw [e40]
    | ⟨1, _⟩ => show win0_4.index t (1 : Fin 2) * 64 + 1 * e.val = win0_6.index t (1 : Fin 2) * 64 + 1 * e.val; rw [e41, e61]

/-- An index of the second output is in point `t`'s block iff each coordinate is in the block's range on its axis. -/
theorem mem_blk6 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v4_1).slice (win0_6.rect t)).set ↔ _
  rw [View.set_slice_whole, Rect.mem_set_unit]
  exact Iff.rfl

/-- Every row of the second output is in the block of the point numbered by the row's quotient by 5000. -/
theorem cover6 (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨e00, e01, e10, e11, e20, e21, e30, e31, e40, e41, e50, e51, e60, e61⟩ := idx_facts t
  have ht : t.val = (i 0).val / 5000 := rfl
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; rw [e60, ht]; omega
  | ⟨1, _⟩ => show win0_6.index t (1 : Fin 2) * 64 ≤ (i 1).val ∧ (i 1).val < win0_6.index t (1 : Fin 2) * 64 + 64; rw [e61]; omega

/-- THE SECOND OUTPUT after the call: `proj` of the arrays as the call finds them. -/
theorem final6 (c : Dev nD) : (dat0 V c).arrAt 6 cfg0.N = proj (V c main_arg0) (V c main_v1) (V c main_v3) :=
  (dat0 V c).arrAt_eq_of_cover 6 _ (fun t _ => flushed6_eq V c t) cover6

end Cert.KernelIdeal.NodeProj

end
-- ==== Proof.HostReads.lean ====
/-
  The contents the two calls are entered from, and the result, read through the host operations.

  Before the node-projection call the host transposes the two node weights and lays the two node biases out as
  1 × 64 rows; nothing else is touched, so the call finds the node features as launched. Between the calls the host
  normalises the two rows of edge endpoints, gathers the projected source and target rows and adds them, transposes
  the two edge weights and builds from each the 128 × 128 matrix with the transposed weight in both diagonal blocks and
  zeros elsewhere, doubles the two edge biases end to end, and packs the edge attributes and the gathered sum two
  edges per row. After the edge call one reshape unpacks the result. Each buffer's contents at each boundary is the
  composition of exactly these operations over the launch memory.
-/
import proofs.«163496_j81973745812097_2_alg».proof.Proof.NodeProj
import proofs.«163496_j81973745812097_2_alg».proof.Proof.Gen.ReferenceIdeal.Read
import Idealize.ShloMosaic.Lib.StableHlo.Run

set_option maxRecDepth 16384

noncomputable section

namespace Cert.KernelIdeal.HostReads

open Cert.KernelIdeal Cert.KernelIdeal.Gen Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the node-projection call is entered from -/

theorem V1_arg0 (c : Dev nD) : V1 m ρ c main_arg0 = (m ((c : Thread nD τ).loc main_arg0)) := by
  show StableHlo.after hostOps0 (W0 m ρ c) (Proc.devRef .tc main_arg0) = _
  after_results <;> rfl
theorem V1_v0 (c : Dev nD) : V1 m ρ c main_v0 = transpose S128x64 [1, 0] (m ((c : Thread nD τ).loc main_arg5)) transposes_S64x128_S128x64_1_0 := by
  show StableHlo.after hostOps0 (W0 m ρ c) (Proc.devRef .tc main_v0) = _
  after_results <;> rfl
theorem V1_v1 (c : Dev nD) : V1 m ρ c main_v1 = transpose S128x64 [1, 0] (m ((c : Thread nD τ).loc main_arg7)) transposes_S64x128_S128x64_1_0 := by
  show StableHlo.after hostOps0 (W0 m ρ c) (Proc.devRef .tc main_v1) = _
  after_results <;> rfl
theorem V1_v2 (c : Dev nD) : V1 m ρ c main_v2 = shapeCast S1x64 (m ((c : Thread nD τ).loc main_arg6)) shapeCasts_S64_S1x64 := by
  show StableHlo.after hostOps0 (W0 m ρ c) (Proc.devRef .tc main_v2) = _
  after_results <;> rfl
theorem V1_v3 (c : Dev nD) : V1 m ρ c main_v3 = shapeCast S1x64 (m ((c : Thread nD τ).loc main_arg8)) shapeCasts_S64_S1x64 := by
  show StableHlo.after hostOps0 (W0 m ρ c) (Proc.devRef .tc main_v3) = _
  after_results <;> rfl

/-! ## What the node-projection call leaves -/

/-- The projected source rows: the node features against the transposed source weight, plus the source bias. -/
def xs (c : Dev nD) : FVec Ideal S50000x64 .f32 :=
  NodeProj.proj (m ((c : Thread nD τ).loc main_arg0)) (transpose S128x64 [1, 0] (m ((c : Thread nD τ).loc main_arg5)) transposes_S64x128_S128x64_1_0) (shapeCast S1x64 (m ((c : Thread nD τ).loc main_arg6)) shapeCasts_S64_S1x64)
/-- The projected target rows. -/
def xt (c : Dev nD) : FVec Ideal S50000x64 .f32 :=
  NodeProj.proj (m ((c : Thread nD τ).loc main_arg0)) (transpose S128x64 [1, 0] (m ((c : Thread nD τ).loc main_arg7)) transposes_S64x128_S128x64_1_0) (shapeCast S1x64 (m ((c : Thread nD τ).loc main_arg8)) shapeCasts_S64_S1x64)

theorem W2_xs (c : Dev nD) : W2 m ρ c (Proc.devRef .tc main_v4_0) = xs m c :=
  (W2_arr m ρ c 5).trans ((NodeProj.final5 (V1 m ρ) c).trans (by rw [V1_arg0, V1_v0, V1_v2]; rfl))
theorem W2_xt (c : Dev nD) : W2 m ρ c (Proc.devRef .tc main_v4_1) = xt m c :=
  (W2_arr m ρ c 6).trans ((NodeProj.final6 (V1 m ρ) c).trans (by rw [V1_arg0, V1_v1, V1_v3]; rfl))

theorem W2_arg1 (c : Dev nD) : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results <;> rfl)
theorem W2_arg2 (c : Dev nD) : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    after_results <;> rfl)
theorem W2_arg3 (c : Dev nD) : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    after_results <;> rfl)
theorem W2_arg4 (c : Dev nD) : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results <;> rfl)
theorem W2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results <;> rfl)
theorem W2_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results <;> rfl)

/-! ## What the edge call is entered from -/

/-- The 128 × 128 matrix with `A` in both diagonal blocks and zeros elsewhere, as the host builds it. -/
def blockDiag (A : FVec Ideal S64x64 .f32) : FVec Ideal S128x128 .f32 :=
  concatenate S128x128 0
    [⟨S64x128, concatenate S64x128 1 [⟨S64x64, A⟩, ⟨S64x64, broadcastInDim S64x64 ![] bcast_S_S64x64 (constant (F := Ideal) S_ .f32 0x00000000#32)⟩] concatenates_S64x64_S64x64_S64x128_d1⟩,
     ⟨S64x128, concatenate S64x128 1 [⟨S64x64, broadcastInDim S64x64 ![] bcast_S_S64x64 (constant (F := Ideal) S_ .f32 0x00000000#32)⟩, ⟨S64x64, A⟩] concatenates_S64x64_S64x64_S64x128_d1⟩]
    concatenates_S64x128_S64x128_S128x128_d0

/-- A 64-vector laid twice end to end as one 1 × 128 row. -/
def doubled (b : FVec Ideal S64 .f32) : FVec Ideal S1x128 .f32 :=
  shapeCast S1x128 (concatenate S128 0 [⟨S64, b⟩, ⟨S64, b⟩] concatenates_S64_S64_S128_d0) shapeCasts_S128_S1x128

/-- The gathered sum: the projected source row of each edge's source plus the projected target row of its target. -/
def gsum (c : Dev nD) : FVec Ideal S1000000x64 .f32 :=
  addf (Host.gather gather_S50000x64_S1000000x1_S1000000x64_1_0_n_n_0_1_164 (xs m c) (Cert.ReferenceIdeal.Read.val_main_v22 (F := Ideal) (m ((c : Thread nD τ).loc main_arg1))))
       (Host.gather gather_S50000x64_S1000000x1_S1000000x64_1_0_n_n_0_1_164 (xt m c) (Cert.ReferenceIdeal.Read.val_main_v32 (F := Ideal) (m ((c : Thread nD τ).loc main_arg1))))

theorem V3_v38 (c : Dev nD) : V3 m ρ c main_v38 = shapeCast S500000x128 (m ((c : Thread nD τ).loc main_arg2)) shapeCasts_S1000000x64_S500000x128 := by
  rw [← W2_arg2 m ρ c]
  show StableHlo.after hostOps1 (W2 m ρ c) (Proc.devRef .tc main_v38) = _
  after_results <;> rfl
theorem V3_v39 (c : Dev nD) : V3 m ρ c main_v39 = shapeCast S500000x128 (gsum m c) shapeCasts_S1000000x64_S500000x128 := by
  unfold gsum
  rw [← W2_arg1 m ρ c, ← W2_xs m ρ c, ← W2_xt m ρ c]
  show StableHlo.after hostOps1 (W2 m ρ c) (Proc.devRef .tc main_v39) = _
  after_results_simp <;> rfl
theorem V3_v29 (c : Dev nD) : V3 m ρ c main_v29 = blockDiag (transpose S64x64 [1, 0] (m ((c : Thread nD τ).loc main_arg3)) transposes_S64x64_S64x64_1_0) := by
  rw [← W2_arg3 m ρ c]
  show StableHlo.after hostOps1 (W2 m ρ c) (Proc.devRef .tc main_v29) = _
  after_results <;> rfl
set_option maxHeartbeats 2000000 in
theorem V3_v33 (c : Dev nD) : V3 m ρ c main_v33 = blockDiag (transpose S64x64 [1, 0] (m ((c : Thread nD τ).loc main_arg9)) transposes_S64x64_S64x64_1_0) := by
  rw [← W2_arg9 m ρ c]
  show StableHlo.after hostOps1 (W2 m ρ c) (Proc.devRef .tc main_v33) = _
  after_results <;> rfl
theorem V3_v35 (c : Dev nD) : V3 m ρ c main_v35 = doubled (m ((c : Thread nD τ).loc main_arg4)) := by
  rw [← W2_arg4 m ρ c]
  show StableHlo.after hostOps1 (W2 m ρ c) (Proc.devRef .tc main_v35) = _
  after_results <;> rfl
theorem V3_v37 (c : Dev nD) : V3 m ρ c main_v37 = doubled (m ((c : Thread nD τ).loc main_arg10)) := by
  rw [← W2_arg10 m ρ c]
  show StableHlo.after hostOps1 (W2 m ρ c) (Proc.devRef .tc main_v37) = _
  after_results <;> rfl

/-! ## The result -/

theorem W5_result (c : Dev nD) :
    W5 m ρ c (Proc.devRef .tc main_v41) = shapeCast S1000000x64 ((dat1 (V3 m ρ) c).arrAt 6 cfg1.N) shapeCasts_S500000x128_S1000000x64 := by
  rw [← W4_arr m ρ c 6]
  show StableHlo.after hostOps2 (W4 m ρ c) (Proc.devRef .tc main_v41) = _
  after_results <;> rfl

end Cert.KernelIdeal.HostReads

end
-- ==== Proof.EdgeFuse.lean ====
/-
  The edge call, as one whole-array function.

  The call walks 125 grid points; point t stages rows 4000 t … 4000 t + 3999 (128 wide: two edges per row) of the packed
  edge attributes and of the packed gathered sum, the two whole 128 × 128 weights and the two 1 × 128 bias rows, and
  writes back rows 4000 t … 4000 t + 3999 of its output. Entry (r, q) of the body's block is
      ∑ k < 128, gelu(pre[r, k]) · w1[k, q] + b1[0, q],   pre[r, k] = (∑ k' < 128, ea[r, k'] · we[k', k] + be[0, k]) + g[r, k],
  with gelu(x) = x · (½ · (1 + tanh(c₂ · (x + c₁ · (x · (x · x)))))) on the extended reals (c₁, c₂ the two f32 literals of
  the tanh approximation; the roundings to bf16 are the identity). The blocks are the restrictions of ONE function of
  the whole arrays, `fuse`, and they tile the output, which therefore ends holding `fuse` of the arrays as found.
-/
import proofs.«163496_j81973745812097_2_alg».proof.Proof.Gen.KernelIdeal.Frame
import proofs.«163496_j81973745812097_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeFuse

open Cert.KernelIdeal Cert.KernelIdeal.Gen Idealize.ShloMosaic Idealize.ShloMosaic.TcCoe Idealize.ShloMosaic.ValueIdx Idealize.SL.Sem
open Idealize.ShloMosaic.Pipeline (Dat)

/-- The tanh approximation of the Gaussian error linear unit on one extended real, as the body spells it. -/
def gelu (x : Ideal .f32) : Ideal .f32 :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

theorem hz : (![0, 0] : Fin 2 → Nat) = fun _ => 0 := funext fun a => by fin_cases a <;> rfl

/-- The printed product's dimension record is the plain one. -/
theorem dot_plain : dot_S4000x128_S128x128_S4000x128_1_0_0_1_n_n = DotDims.plain 4000 128 128 := rfl

/-- The block of pre-activations: packed attributes times the first weight, plus its bias row, plus the packed gathered sum. -/
def pre (v0 : Vec Ideal S4000x128 .f32) (v3 : Vec Ideal S128x128 .f32) (v7 : Vec Ideal S1x128 .f32) (v11 : Vec Ideal S4000x128 .f32) : FVec Ideal S4000x128 .f32 :=
  addf (addf (matmul dot_S4000x128_S128x128_S4000x128_1_0_0_1_n_n none
        (truncf .bf16 (shapeCast S4000x128 v0 shapeCasts_S4000x128_S4000x128) bitsLt_bf16_f32)
        (truncf .bf16 (shapeCast S128x128 v3 shapeCasts_S128x128_S128x128) bitsLt_bf16_f32)
        (constant S4000x128 .f32 0x00000000#32))
      (broadcastTo S4000x128 (shapeCast S1x128 v7 shapeCasts_S1x128_S1x128) broadcasts_S1x128_S4000x128))
    (shapeCast S4000x128 v11 shapeCasts_S4000x128_S4000x128)

/-- The body's value is the second product of the activated block, plus the second bias row. -/
theorem pay1_eq (v0 : Vec Ideal S4000x128 .f32) (v3 : Vec Ideal S128x128 .f32) (v7 : Vec Ideal S1x128 .f32) (v11 : Vec Ideal S4000x128 .f32)
    (v28 : Vec Ideal S128x128 .f32) (v32 : Vec Ideal S1x128 .f32) :
    k1_pay1 v0 v3 v7 v11 v28 v32
      = addf (matmul dot_S4000x128_S128x128_S4000x128_1_0_0_1_n_n none
          (truncf .bf16 ((fun i => gelu (pre v0 v3 v7 v11 i)) : FVec Ideal S4000x128 .f32) bitsLt_bf16_f32)
          (truncf .bf16 (shapeCast S128x128 v28 shapeCasts_S128x128_S128x128) bitsLt_bf16_f32)
          (constant S4000x128 .f32 0x00000000#32))
        (broadcastTo S4000x128 (shapeCast S1x128 v32 shapeCasts_S1x128_S1x128) broadcasts_S1x128_S4000x128) := rfl

/-- A pre-activation at an entry of the block. -/
theorem pre_at (v0 : Vec Ideal S4000x128 .f32) (v3 : Vec Ideal S128x128 .f32) (v7 : Vec Ideal S1x128 .f32) (v11 : Vec Ideal S4000x128 .f32)
    (r : Fin 4000) (k : Fin 128) :
    pre v0 v3 v7 v11 (ix2 r k) = ((∑ k' : Fin 128, v0 (ix2 r k') * v3 (ix2 k' k)) + v7 (ix2 (0 : Fin 1) k)) + v11 (ix2 r k) := by
  unfold pre
  rw [addf_apply, addf_apply, shapeCast_self, shapeCast_self, shapeCast_self, shapeCast_self]
  refine congrArg₂ (· + ·) (congrArg₂ (· + ·) ?_ ?_) rfl
  · exact matmul_plain_zero_apply _ dot_plain none _ _ r k
  · exact broadcastTo_1b_ab_apply v7 _ r k

/-- The body's value at an entry of the block. -/
theorem pay1_at (v0 : Vec Ideal S4000x128 .f32) (v3 : Vec Ideal S128x128 .f32) (v7 : Vec Ideal S1x128 .f32) (v11 : Vec Ideal S4000x128 .f32)
    (v28 : Vec Ideal S128x128 .f32) (v32 : Vec Ideal S1x128 .f32) (r : Fin 4000) (q : Fin 128) :
    k1_pay1 v0 v3 v7 v11 v28 v32 (ix2 r q)
      = (∑ k : Fin 128, gelu (((∑ k' : Fin 128, v0 (ix2 r k') * v3 (ix2 k' k)) + v7 (ix2 (0 : Fin 1) k)) + v11 (ix2 r k)) * v28 (ix2 k q))
        + v32 (ix2 (0 : Fin 1) q) := by
  rw [pay1_eq, addf_apply, shapeCast_self, shapeCast_self]
  refine congrArg₂ (· + ·) ?_ ?_
  · refine (matmul_plain_zero_apply _ dot_plain none _ _ r q).trans ?_
    refine Finset.sum_congr rfl fun k _ => congrArg₂ (· * ·) ?_ rfl
    exact congrArg gelu (pre_at v0 v3 v7 v11 r k)
  · exact broadcastTo_1b_ab_apply v32 _ r q

/-- Entry (p, q) of the fused edge update over whole packed arrays. -/
def fuseAt (ea g : FVec Ideal S500000x128 .f32) (we : FVec Ideal S128x128 .f32) (be : FVec Ideal S1x128 .f32)
    (w1 : FVec Ideal S128x128 .f32) (b1 : FVec Ideal S1x128 .f32) (p : Fin 500000) (q : Fin 128) : Ideal .f32 :=
  (∑ k : Fin 128, gelu (((∑ k' : Fin 128, ea (ix2 p k') * we (ix2 k' k)) + be (ix2 (0 : Fin 1) k)) + g (ix2 p k)) * w1 (ix2 k q))
    + b1 (ix2 (0 : Fin 1) q)

/-- The fused edge update as a whole packed array. -/
def fuse (ea g : FVec Ideal S500000x128 .f32) (we : FVec Ideal S128x128 .f32) (be : FVec Ideal S1x128 .f32)
    (w1 : FVec Ideal S128x128 .f32) (b1 : FVec Ideal S1x128 .f32) : FVec Ideal S500000x128 .f32 :=
  fun i => fuseAt ea g we be w1 b1 ⟨(i 0).val, (i 0).isLt⟩ ⟨(i 1).val, (i 1).isLt⟩

variable (V : (c : Dev nD) → (b : Ref sig .tc) → Buf (Elt Ideal) ((c : Thread nD τ).loc b))

/-- The index maps over the 125 grid points: the two packed inputs and the output move down one block of rows per point;
    the weights and bias rows stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of `fuse` of the arrays as the call finds them. -/
theorem flushed6_eq (c : Dev nD) (t : Fin cfg1.N) :
    (dat1 V c).flushed 6 t = ((cfg1.win 6).blk t).view.read (Elt Ideal)
      (fuse (V c main_v38) (V c main_v39) (V c main_v29) (V c main_v35) (V c main_v33) (V c main_v37)) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51, e60, e61⟩ := idx_facts t
  funext j
  obtain ⟨r, q, rfl⟩ : ∃ (r : Fin 4000) (q : Fin 128), j = ix2 r q := ⟨j 0, j 1, eq_ix2 j⟩
  refine (pay1_at _ _ _ _ _ _ r q).trans ?_
  show _ = fuseAt (V c main_v38) (V c main_v39) (V c main_v29) (V c main_v35) (V c main_v33) (V c main_v37) _ _
  unfold fuseAt
  refine congrArg₂ (· + ·) (Finset.sum_congr rfl fun k _ => congrArg₂ (· * ·) (congrArg gelu (congrArg₂ (· + ·) (congrArg₂ (· + ·)
    (Finset.sum_congr rfl fun k' _ => congrArg₂ (· * ·) ?_ ?_) ?_) ?_)) ?_) ?_
  · show V c main_v38 (((cfg1.win 0).blk t).view.emb (ix2 r k')) = V c main_v38 _
    refine congrArg (V c main_v38) (funext fun a => Fin.ext ?_)
    match a with
    | ⟨0, _⟩ => show win1_0.index t (0 : Fin 2) * 4000 + 1 * r.val = win1_6.index t (0 : Fin 2) * 4000 + 1 * r.val; rw [e00, e60]
    | ⟨1, _⟩ => show win1_0.index t (1 : Fin 2) * 128 + 1 * k'.val = k'.val; rw [e01]; omega
  · show V c main_v29 (((cfg1.win 2).blk t).view.emb (ix2 k' k)) = V c main_v29 _
    refine congrArg (V c main_v29) (funext fun a => Fin.ext ?_)
    match a with
    | ⟨0, _⟩ => show win1_2.index t (0 : Fin 2) * 128 + 1 * k'.val = k'.val; rw [e20]; omega
    | ⟨1, _⟩ => show win1_2.index t (1 : Fin 2) * 128 + 1 * k.val = k.val; rw [e21]; omega
  · show V c main_v35 (((cfg1.win 3).blk t).view.emb (ix2 (0 : Fin 1) k)) = V c main_v35 _
    refine congrArg (V c main_v35) (funext fun a => Fin.ext ?_)
    match a with
    | ⟨0, _⟩ => show win1_3.index t (0 : Fin 2) * 1 + 1 * 0 = 0; rw [e30]
    | ⟨1, _⟩ => show win1_3.index t (1 : Fin 2) * 128 + 1 * k.val = k.val; rw [e31]; omega
  · show V c main_v39 (((cfg1.win 1).blk t).view.emb (ix2 r k)) = V c main_v39 _
    refine congrArg (V c main_v39) (funext fun a => Fin.ext ?_)
    match a with
    | ⟨0, _⟩ => show win1_1.index t (0 : Fin 2) * 4000 + 1 * r.val = win1_6.index t (0 : Fin 2) * 4000 + 1 * r.val; rw [e10, e60]
    | ⟨1, _⟩ => show win1_1.index t (1 : Fin 2) * 128 + 1 * k.val = k.val; rw [e11]; omega
  · show V c main_v33 (((cfg1.win 4).blk t).view.emb (ix2 k q)) = V c main_v33 _
    refine congrArg (V c main_v33) (funext fun a => Fin.ext ?_)
    match a with
    | ⟨0, _⟩ => show win1_4.index t (0 : Fin 2) * 128 + 1 * k.val = k.val; rw [e40]; omega
    | ⟨1, _⟩ => show win1_4.index t (1 : Fin 2) * 128 + 1 * q.val = win1_6.index t (1 : Fin 2) * 128 + 1 * q.val; rw [e41, e61]
  · show V c main_v37 (((cfg1.win 5).blk t).view.emb (ix2 (0 : Fin 1) q)) = V c main_v37 _
    refine congrArg (V c main_v37) (funext fun a => Fin.ext ?_)
    match a with
    | ⟨0, _⟩ => show win1_5.index t (0 : Fin 2) * 1 + 1 * 0 = 0; rw [e50]
    | ⟨1, _⟩ => show win1_5.index t (1 : Fin 2) * 128 + 1 * q.val = win1_6.index t (1 : Fin 2) * 128 + 1 * q.val; rw [e51, e61]

/-- An index of the output is in point `t`'s block iff each coordinate is in the block's range on its axis. -/
theorem mem_blk6 (t : Fin cfg1.N) (i : S500000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v40).slice (win1_6.rect t)).set ↔ _
  rw [View.set_slice_whole, Rect.mem_set_unit]
  exact Iff.rfl

/-- Every row of the output is in the block of the point numbered by the row's quotient by 4000. -/
theorem cover6 (i : S500000x128.Idx) : ∃ t : Fin cfg1.N, (cfg1.win 6).flush t = true ∧ i ∈ ((cfg1.win 6).blk t).view.set := by
  have hi0 : (i 0).val < 500000 := (i 0).isLt
  have hi1 : (i 1).val < 128 := (i 1).isLt
  have hN : cfg1.N = 125 := N_1
  let t : Fin cfg1.N := ⟨(i 0).val / 4000, by rw [hN]; omega⟩
  obtain ⟨e00, e01, e10, e11, e20, e21, e30, e31, e40, e41, e50, e51, e60, e61⟩ := idx_facts t
  have ht : t.val = (i 0).val / 4000 := rfl
  refine ⟨t, flush1_6 t, ?_⟩
  rw [mem_blk6]
  intro a
  match a with
  | ⟨0, _⟩ => show win1_6.index t (0 : Fin 2) * 4000 ≤ (i 0).val ∧ (i 0).val < win1_6.index t (0 : Fin 2) * 4000 + 4000; rw [e60, ht]; omega
  | ⟨1, _⟩ => show win1_6.index t (1 : Fin 2) * 128 ≤ (i 1).val ∧ (i 1).val < win1_6.index t (1 : Fin 2) * 128 + 128; rw [e61]; omega

/-- THE OUTPUT after the call: `fuse` of the arrays as the call finds them. -/
theorem final6 (c : Dev nD) : (dat1 V c).arrAt 6 cfg1.N
    = fuse (V c main_v38) (V c main_v39) (V c main_v29) (V c main_v35) (V c main_v33) (V c main_v37) :=
  (dat1 V c).arrAt_eq_of_cover 6 _ (fun t _ => flushed6_eq V c t) cover6

end Cert.KernelIdeal.EdgeFuse

end
-- ==== Proof.LibIndexReads.lean ====
/-
  Vector and layout operations read at an index, for any extents.

  Each lemma names the one entry of the operand that an operation's result holds at a given entry, the indices written
  by their coordinates:
    * the logistic function, lane by lane;
    * a matrix product [M, K] × [N, K] with the right operand contracted on its LAST axis, into the zero accumulator:
      entry (r, e) is Σ_k lhs[r, k] · rhs[e, k];
    * a float sum over the LEADING axis of an [a, b, c] array: entry (i, j) is Σ_f src[f, i, j];
    * an array [1, b, c] broadcast along its unit axis to [a, b, c];
    * a matrix reshaped to a matrix, an [a, b, 1, 1] tensor flattened to a matrix, a vector folded into a matrix: the entry
      with the same row-major position;
    * the transpose with permutation [2, 3, 0, 1] of a rank-4 tensor: the two leading axes swapped with the two
      trailing ones.
-/
import Idealize.ShloMosaic.Lib.ValueLayout
import Idealize.ShloMosaic.Lib.Pipeline.Value
import Idealize.ShloMosaic.PureOps.Ideal.Laws

noncomputable section

open scoped BigOperators

namespace Cert.LibIndexReads

open Idealize.ShloMosaic Idealize.ShloMosaic.ValueIdx

variable {α : Type}

/-- The logistic function applied lane by lane. -/
theorem logistic_apply {s : Shape} {φ : FTy} (x : FVec Ideal s φ) (i : s.Idx) : logistic x i = Ideal.logistic (x i) := rfl

/-- Entry (r, e) of an [M, K] × [N, K] product contracted on both last axes, into the zero accumulator, is
    Σ_k lhs[r, k] · rhs[e, k]. -/
theorem matmul_transposedRhs_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (r : Fin M) (e : Fin N) :
    FloatOps.matmul d prec lhs rhs (constant ⟨2, ![M, N]⟩ .f32 0x00000000#32) (ix2 r e)
      = ∑ k : Fin K, lhs (ix2 r k) * rhs (ix2 e k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r e) ((contrEquiv1 (DotDims.transposedRhs M K N) K rfl rfl).symm k) = ix2 r k :=
    funext fun a => Fin.ext (by
      match a with
      | ⟨0, _⟩ => rfl
      | ⟨1, _⟩ => exact hk)
  have er : (DotDims.transposedRhs M K N).rhsIdx (ix2 r e) ((contrEquiv1 (DotDims.transposedRhs M K N) K rfl rfl).symm k) = ix2 e k :=
    funext fun a => Fin.ext (by
      match a with
      | ⟨0, _⟩ => rfl
      | ⟨1, _⟩ => exact hk)
  rw [el, er]

/-- A float sum over the leading axis of an [a, b, c] array reads, at (i, j), the sum over f of the entries (f, i, j). -/
theorem multiReduction_add_axis0_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (i : Fin b) (j : Fin c) :
    multiReduction .add [0] ⟨2, ![b, c]⟩ src acc h hφ hacc (ix2 i j) = ∑ f : Fin a, src (ix3 f i j) := by
  refine (Ideal.multiReduction_add_single src acc h hφ hacc (ix2 i j)).trans ?_
  exact Finset.sum_congr rfl fun f _ => congrArg src (funext fun d => Fin.ext (by
    match d with
    | ⟨0, _⟩ => rfl
    | ⟨1, _⟩ => rfl
    | ⟨2, _⟩ => rfl))

/-- A [1, b, c] array broadcast to [a, b, c] reads, at (p, i, j), the operand's one slab at (i, j). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An [r, l] matrix reshaped to [s, c] reads, at (i, j), the operand at the entry with the same row-major position. -/
theorem shapeCast_matrix_apply {r l s c : ℕ} (x : (⟨2, ![r, l]⟩ : Shape).Idx → α)
    (h : (⟨2, ![r, l]⟩ : Shape).ShapeCasts ⟨2, ![s, c]⟩) (i : Fin s) (j : Fin c) (i' : Fin r) (j' : Fin l)
    (hk : i'.val * l + j'.val = i.val * c + j.val) :
    shapeCast ⟨2, ![s, c]⟩ x h (ix2 i j) = x (ix2 i' j') :=
  shapeCast_apply x h _ _ (by
    rw [Shape.rowMajor_val_two, Shape.rowMajor_val_two]
    exact hk)

/-- An [a, b, 1, 1] tensor reshaped to a matrix reads, at an entry whose row-major position is s·b + k, entry (s, k, 0, 0). -/
theorem shapeCast_ab11_matrix_apply {a b r l : ℕ} (x : (⟨4, ![a, b, 1, 1]⟩ : Shape).Idx → α)
    (h : (⟨4, ![a, b, 1, 1]⟩ : Shape).ShapeCasts ⟨2, ![r, l]⟩) (i : Fin r) (j : Fin l) (s : Fin a) (k : Fin b)
    (hk : s.val * b + k.val = i.val * l + j.val) :
    shapeCast ⟨2, ![r, l]⟩ x h (ix2 i j) = x (ix4 s k (0 : Fin 1) (0 : Fin 1)) :=
  shapeCast_apply x h _ _ (by
    rw [Shape.rowMajor_val_four, Shape.rowMajor_val_two]
    show ((s.val * b + k.val) * 1 + 0) * 1 + 0 = i.val * l + j.val
    omega)

/-- A vector folded into a matrix reads, at an entry whose row-major position is k, entry k. -/
theorem shapeCast_vec_matrix_apply {a r l : ℕ} (x : (⟨1, ![a]⟩ : Shape).Idx → α)
    (h : (⟨1, ![a]⟩ : Shape).ShapeCasts ⟨2, ![r, l]⟩) (i : Fin r) (j : Fin l) (k : Fin a)
    (hk : k.val = i.val * l + j.val) :
    shapeCast ⟨2, ![r, l]⟩ x h (ix2 i j) = x (ix1 k) :=
  shapeCast_apply x h _ _ (by
    rw [Shape.rowMajor_val_one, Shape.rowMajor_val_two]
    exact hk)

/-- The transpose with permutation [2, 3, 0, 1] of an [a, b, c, d] tensor reads, at (i, j, n, k), entry (n, k, i, j). -/
theorem transpose_2301_apply {a b c d : ℕ} (x : (⟨4, ![a, b, c, d]⟩ : Shape).Idx → α)
    (h : (⟨4, ![a, b, c, d]⟩ : Shape).Transposes [2, 3, 0, 1] ⟨4, ![c, d, a, b]⟩)
    (i : Fin c) (j : Fin d) (n : Fin a) (k : Fin b) :
    transpose ⟨4, ![c, d, a, b]⟩ [2, 3, 0, 1] x h (ix4 i j n k) = x (ix4 n k i j) :=
  transpose_apply _ x h _ _ (fun e => by
    match e with
    | ⟨0, _⟩ => rfl
    | ⟨1, _⟩ => rfl
    | ⟨2, _⟩ => rfl
    | ⟨3, _⟩ => rfl)

end Cert.LibIndexReads

end
-- ==== Proof.LibBlockHalves.lean ====
/-
  Sums over 128 indices taken as two halves of 64, on the extended reals.

  A row of two packed edges is 128 wide and a block-diagonal weight vanishes off its two 64 × 64 diagonal blocks; on the
  extended reals x · 0 = 0 for every x (the infinities included) and a sum of zeros is zero, so a 128-term product sum
  against a column of such a weight keeps only the 64 terms of the column's own block. No finiteness is used.
-/
import Mathlib.Data.EReal.Operations
import Mathlib.Algebra.BigOperators.Fin

namespace Cert.LibBlockHalves

/-- A sum over 128 indices is the sum over the first 64 plus the sum over the last 64. -/
theorem sum_halves {M : Type*} [AddCommMonoid M] (f : Fin 128 → M) :
    ∑ k : Fin 128, f k
      = (∑ k : Fin 64, f ⟨k.val, Nat.lt_of_lt_of_le k.isLt (by decide)⟩) + ∑ k : Fin 64, f ⟨64 + k.val, by have := k.isLt; omega⟩ :=
  Fin.sum_univ_add (a := 64) (b := 64) f

/-- Against a factor that vanishes on the last 64 indices only the first half of a product sum is left. -/
theorem sum_mul_of_zero_last (a w : Fin 128 → EReal) (hz : ∀ k : Fin 64, w ⟨64 + k.val, by have := k.isLt; omega⟩ = 0) :
    ∑ k : Fin 128, a k * w k
      = ∑ k : Fin 64, a ⟨k.val, Nat.lt_of_lt_of_le k.isLt (by decide)⟩ * w ⟨k.val, Nat.lt_of_lt_of_le k.isLt (by decide)⟩ := by
  rw [sum_halves]
  simp only [hz, mul_zero, Finset.sum_const_zero, add_zero]

/-- Against a factor that vanishes on the first 64 indices only the second half of a product sum is left. -/
theorem sum_mul_of_zero_first (a w : Fin 128 → EReal) (hz : ∀ k : Fin 64, w ⟨k.val, Nat.lt_of_lt_of_le k.isLt (by decide)⟩ = 0) :
    ∑ k : Fin 128, a k * w k
      = ∑ k : Fin 64, a ⟨64 + k.val, by have := k.isLt; omega⟩ * w ⟨64 + k.val, by have := k.isLt; omega⟩ := by
  rw [sum_halves]
  simp only [hz, mul_zero, Finset.sum_const_zero, zero_add]

end Cert.LibBlockHalves
-- ==== Proof.Packing.lean ====
/-
  Reading the packed layout at an index.

  Two consecutive edges share one 128-wide row: row p of a packed array holds edge 2p in columns 0 … 63 and edge 2p + 1 in
  columns 64 … 127, and conversely entry (e, j) of the unpacked result is entry (e / 2, 64 (e mod 2) + j) of the packed one.
  The block-diagonal weight built from A reads A on its two diagonal 64 × 64 blocks and the zero of the extended reals on
  the other two; a bias laid twice end to end reads the bias in both halves. With x · 0 = 0 this leaves, of a 128-term
  product sum against a column of the block-diagonal weight, only the 64 terms of that column's own half.
-/
import proofs.«163496_j81973745812097_2_alg».proof.Proof.HostReads
import proofs.«163496_j81973745812097_2_alg».proof.Proof.LibIndexReads
import proofs.«163496_j81973745812097_2_alg».proof.Proof.LibBlockHalves
import Idealize.ShloMosaic.Lib.Pipeline.Value
import Idealize.ShloMosaic.Lib.ValueLayout
import Idealize.ShloMosaic.PureOps.Ideal.Laws

set_option maxRecDepth 16384

noncomputable section

namespace Cert.KernelIdeal.Packing

open Cert.KernelIdeal Cert.KernelIdeal.Gen Cert.KernelIdeal.HostReads Cert.LibIndexReads Cert.LibBlockHalves
open Idealize.ShloMosaic Idealize.ShloMosaic.TcCoe Idealize.ShloMosaic.ValueIdx Idealize.SL.Sem

/-- Column `k` of the first edge of a packed row. -/
abbrev lo (k : Fin 64) : Fin 128 := ⟨k.val, Nat.lt_of_lt_of_le k.isLt (by decide)⟩
/-- Column `k` of the second edge of a packed row. -/
abbrev hi (k : Fin 64) : Fin 128 := ⟨64 + k.val, by have := k.isLt; omega⟩

/-- The host's zero block reads the zero of the extended reals. -/
theorem zero_at (i : S64x64.Idx) :
    broadcastInDim S64x64 ![] bcast_S_S64x64 (constant (F := Ideal) S_ .f32 0x00000000#32) i = 0 := by
  rw [broadcastInDim_apply ![] bcast_S_S64x64 _ i ix0 (fun a => a.elim0), constant_apply, Ideal.ofBits_zero_f32]

/-! ## Two blocks side by side, two blocks one above the other -/

theorem cat1_lo (A B : FVec Ideal S64x64 .f32) (u v : Fin 64) :
    concatenate S64x128 1 [⟨S64x64, A⟩, ⟨S64x64, B⟩] concatenates_S64x64_S64x64_S64x128_d1 (ix2 u (lo v)) = A (ix2 u v) :=
  concatenate_pair_apply_left (1 : Fin 2) A B _ (ix2 u (lo v)) rfl (ix2 u v) (fun b => match b with | ⟨0, _⟩ => rfl | ⟨1, _⟩ => rfl)

theorem cat1_hi (A B : FVec Ideal S64x64 .f32) (u v : Fin 64) :
    concatenate S64x128 1 [⟨S64x64, A⟩, ⟨S64x64, B⟩] concatenates_S64x64_S64x64_S64x128_d1 (ix2 u (hi v)) = B (ix2 u v) :=
  concatenate_pair_apply_right (1 : Fin 2) A B _ (ix2 u (hi v)) rfl rfl (ix2 u v)
    (fun b hb => match b, hb with | ⟨0, _⟩, _ => rfl | ⟨1, _⟩, hb => (hb (Fin.ext rfl)).elim)
    (by show v.val + 64 = 64 + v.val; omega)

theorem cat0_lo (P Q : FVec Ideal S64x128 .f32) (u : Fin 64) (q : Fin 128) :
    concatenate S128x128 0 [⟨S64x128, P⟩, ⟨S64x128, Q⟩] concatenates_S64x128_S64x128_S128x128_d0 (ix2 (lo u) q) = P (ix2 u q) :=
  concatenate_pair_apply_left (0 : Fin 2) P Q _ (ix2 (lo u) q) rfl (ix2 u q) (fun b => match b with | ⟨0, _⟩ => rfl | ⟨1, _⟩ => rfl)

theorem cat0_hi (P Q : FVec Ideal S64x128 .f32) (u : Fin 64) (q : Fin 128) :
    concatenate S128x128 0 [⟨S64x128, P⟩, ⟨S64x128, Q⟩] concatenates_S64x128_S64x128_S128x128_d0 (ix2 (hi u) q) = Q (ix2 u q) :=
  concatenate_pair_apply_right (0 : Fin 2) P Q _ (ix2 (hi u) q) rfl rfl (ix2 u q)
    (fun b hb => match b, hb with | ⟨0, _⟩, hb => (hb (Fin.ext rfl)).elim | ⟨1, _⟩, _ => rfl)
    (by show u.val + 64 = 64 + u.val; omega)

/-! ## The block-diagonal weight -/

theorem bd_lo_lo (A : FVec Ideal S64x64 .f32) (u v : Fin 64) : blockDiag A (ix2 (lo u) (lo v)) = A (ix2 u v) := by
  unfold blockDiag; rw [cat0_lo, cat1_lo]
theorem bd_lo_hi (A : FVec Ideal S64x64 .f32) (u v : Fin 64) : blockDiag A (ix2 (lo u) (hi v)) = 0 := by
  unfold blockDiag; rw [cat0_lo, cat1_hi, zero_at]
theorem bd_hi_lo (A : FVec Ideal S64x64 .f32) (u v : Fin 64) : blockDiag A (ix2 (hi u) (lo v)) = 0 := by
  unfold blockDiag; rw [cat0_hi, cat1_lo, zero_at]
theorem bd_hi_hi (A : FVec Ideal S64x64 .f32) (u v : Fin 64) : blockDiag A (ix2 (hi u) (hi v)) = A (ix2 u v) := by
  unfold blockDiag; rw [cat0_hi, cat1_hi]

/-- A product sum over a packed row against a first-half column of the block-diagonal weight keeps the first edge's terms. -/
theorem bd_sum_lo (A : FVec Ideal S64x64 .f32) (a : Fin 128 → Ideal .f32) (v : Fin 64) :
    ∑ k : Fin 128, a k * blockDiag A (ix2 k (lo v)) = ∑ k1 : Fin 64, a (lo k1) * A (ix2 k1 v) :=
  (sum_mul_of_zero_last a (fun k => blockDiag A (ix2 k (lo v))) (fun k => bd_hi_lo A k v)).trans
    (Finset.sum_congr rfl fun k1 _ => congrArg (a (lo k1) * ·) (bd_lo_lo A k1 v))

/-- Against a second-half column it keeps the second edge's terms. -/
theorem bd_sum_hi (A : FVec Ideal S64x64 .f32) (a : Fin 128 → Ideal .f32) (v : Fin 64) :
    ∑ k : Fin 128, a k * blockDiag A (ix2 k (hi v)) = ∑ k1 : Fin 64, a (hi k1) * A (ix2 k1 v) :=
  (sum_mul_of_zero_first a (fun k => blockDiag A (ix2 k (hi v))) (fun k => bd_lo_hi A k v)).trans
    (Finset.sum_congr rfl fun k1 _ => congrArg (a (hi k1) * ·) (bd_hi_hi A k1 v))

/-! ## The doubled bias -/

theorem doubled_lo (b : FVec Ideal S64 .f32) (v : Fin 64) : doubled b (ix2 (0 : Fin 1) (lo v)) = b (ix1 v) := by
  unfold doubled
  rw [shapeCast_a_1a_apply]
  exact concatenate_pair_apply_left (0 : Fin 1) b b _ (ix1 (lo v)) rfl (ix1 v) (fun b => match b with | ⟨0, _⟩ => rfl)

theorem doubled_hi (b : FVec Ideal S64 .f32) (v : Fin 64) : doubled b (ix2 (0 : Fin 1) (hi v)) = b (ix1 v) := by
  unfold doubled
  rw [shapeCast_a_1a_apply]
  exact concatenate_pair_apply_right (0 : Fin 1) b b _ (ix1 (hi v)) rfl rfl (ix1 v)
    (fun b hb => match b, hb with | ⟨0, _⟩, hb => (hb (Fin.ext rfl)).elim)
    (by show v.val + 64 = 64 + v.val; omega)

/-! ## Packing two edges per row, and unpacking -/

theorem pack_lo (X : FVec Ideal S1000000x64 .f32) (p : Fin 500000) (k : Fin 64) (e : Fin 1000000) (he : e.val = 2 * p.val) :
    shapeCast S500000x128 X shapeCasts_S1000000x64_S500000x128 (ix2 p (lo k)) = X (ix2 e k) :=
  shapeCast_matrix_apply X _ p (lo k) e k (by show e.val * 64 + k.val = p.val * 128 + k.val; omega)

theorem pack_hi (X : FVec Ideal S1000000x64 .f32) (p : Fin 500000) (k : Fin 64) (e : Fin 1000000) (he : e.val = 2 * p.val + 1) :
    shapeCast S500000x128 X shapeCasts_S1000000x64_S500000x128 (ix2 p (hi k)) = X (ix2 e k) :=
  shapeCast_matrix_apply X _ p (hi k) e k (by show e.val * 64 + k.val = p.val * 128 + (64 + k.val); omega)

theorem unpack (Y : FVec Ideal S500000x128 .f32) (e : Fin 1000000) (j : Fin 64) :
    shapeCast S1000000x64 Y shapeCasts_S500000x128_S1000000x64 (ix2 e j)
      = Y (ix2 (⟨e.val / 2, by have := e.isLt; omega⟩ : Fin 500000) (⟨64 * (e.val % 2) + j.val, by have := j.isLt; omega⟩ : Fin 128)) :=
  shapeCast_matrix_apply Y _ e j ⟨e.val / 2, by have := e.isLt; omega⟩ ⟨64 * (e.val % 2) + j.val, by have := j.isLt; omega⟩
    (by show e.val / 2 * 128 + (64 * (e.val % 2) + j.val) = e.val * 64 + j.val; omega)

end Cert.KernelIdeal.Packing

end
-- ==== Proof.NodeRef.lean ====
/-
  The node projections and the gathered sum are the reference's.

  Entry (r, e) of a projection is ∑ k < 128, x[r, k] · Wᵀ[k, e] + b[e] on both sides: the kernel lays the bias out as a
  1 × 64 row by a reshape and the reference by a broadcast, and both rows read b[e] at (0, e). So the two projected arrays
  are the reference's as whole arrays, and the gathers of them at the reference's own normalised endpoints, added, are
  the reference's two gathered terms added.
-/
import proofs.«163496_j81973745812097_2_alg».proof.Proof.HostReads
import proofs.«163496_j81973745812097_2_alg».proof.Proof.Gen.ReferenceIdeal.Read
import Idealize.ShloMosaic.Lib.ValueLayout

set_option maxRecDepth 16384

noncomputable section

namespace Cert.KernelIdeal.NodeRef

open Cert.KernelIdeal Cert.KernelIdeal.Gen Cert.KernelIdeal.HostReads Idealize.ShloMosaic Idealize.ShloMosaic.TcCoe Idealize.ShloMosaic.ValueIdx Idealize.SL.Sem

/-- A projection with the source weight and bias is the reference's. -/
theorem proj_eq_v4 (x0 : FVec Ideal S50000x128 .f32) (x5 : FVec Ideal S64x128 .f32) (x6 : FVec Ideal S64 .f32) :
    NodeProj.proj x0 (transpose S128x64 [1, 0] x5 transposes_S64x128_S128x64_1_0) (shapeCast S1x64 x6 shapeCasts_S64_S1x64)
      = Cert.ReferenceIdeal.Read.val_main_v4 (F := Ideal) x0 x5 x6 := by
  funext i
  obtain ⟨r, e, rfl⟩ : ∃ (r : Fin 50000) (e : Fin 64), i = ix2 r e := ⟨i 0, i 1, eq_ix2 i⟩
  rw [Cert.ReferenceIdeal.Read.val_main_v4_apply, Cert.ReferenceIdeal.Read.val_main_v1_apply, Cert.ReferenceIdeal.Read.val_main_v3_apply,
    Cert.ReferenceIdeal.Read.val_main_v2_apply]
  show NodeProj.projAt _ _ _ r e = _
  unfold NodeProj.projAt
  simp only [Ideal.addf_def]
  refine congrArg₂ (· + ·) (Finset.sum_congr rfl fun k _ => congrArg₂ (· * ·) (congrArg x0 ?_) ?_) ?_
  · exact (funext fun a => Fin.ext (by match a with | ⟨0, _⟩ => rfl | ⟨1, _⟩ => rfl))
  · show Cert.ReferenceIdeal.Read.val_main_v0 (F := Ideal) x5 (ix2 k e) = _
    exact congrArg (Cert.ReferenceIdeal.Read.val_main_v0 (F := Ideal) x5) (funext fun a => Fin.ext (by match a with | ⟨0, _⟩ => rfl | ⟨1, _⟩ => rfl))
  · rw [shapeCast_a_1a_apply]
    exact congrArg x6 (funext fun a => Fin.ext (by match a with | ⟨0, _⟩ => rfl))

/-- A projection with the target weight and bias is the reference's. -/
theorem proj_eq_v9 (x0 : FVec Ideal S50000x128 .f32) (x7 : FVec Ideal S64x128 .f32) (x8 : FVec Ideal S64 .f32) :
    NodeProj.proj x0 (transpose S128x64 [1, 0] x7 transposes_S64x128_S128x64_1_0) (shapeCast S1x64 x8 shapeCasts_S64_S1x64)
      = Cert.ReferenceIdeal.Read.val_main_v9 (F := Ideal) x0 x7 x8 := by
  funext i
  obtain ⟨r, e, rfl⟩ : ∃ (r : Fin 50000) (e : Fin 64), i = ix2 r e := ⟨i 0, i 1, eq_ix2 i⟩
  rw [Cert.ReferenceIdeal.Read.val_main_v9_apply, Cert.ReferenceIdeal.Read.val_main_v6_apply, Cert.ReferenceIdeal.Read.val_main_v8_apply,
    Cert.ReferenceIdeal.Read.val_main_v7_apply]
  show NodeProj.projAt _ _ _ r e = _
  unfold NodeProj.projAt
  simp only [Ideal.addf_def]
  refine congrArg₂ (· + ·) (Finset.sum_congr rfl fun k _ => congrArg₂ (· * ·) (congrArg x0 ?_) ?_) ?_
  · exact (funext fun a => Fin.ext (by match a with | ⟨0, _⟩ => rfl | ⟨1, _⟩ => rfl))
  · show Cert.ReferenceIdeal.Read.val_main_v5 (F := Ideal) x7 (ix2 k e) = _
    exact congrArg (Cert.ReferenceIdeal.Read.val_main_v5 (F := Ideal) x7) (funext fun a => Fin.ext (by match a with | ⟨0, _⟩ => rfl | ⟨1, _⟩ => rfl))
  · rw [shapeCast_a_1a_apply]
    exact congrArg x8 (funext fun a => Fin.ext (by match a with | ⟨0, _⟩ => rfl))

variable (m : (ℓ : Loc nD τ sig) → Buf (Elt Ideal) ℓ)

/-- The gathered sum is the reference's gathered source term plus its gathered target term. -/
theorem gsum_eq (c : Dev nD) :
    gsum m c = addf (Cert.ReferenceIdeal.Read.val_main_v23 (F := Ideal) (m ((c : Thread nD τ).loc main_arg0)) (m ((c : Thread nD τ).loc main_arg1)) (m ((c : Thread nD τ).loc main_arg5)) (m ((c : Thread nD τ).loc main_arg6)))
                    (Cert.ReferenceIdeal.Read.val_main_v33 (F := Ideal) (m ((c : Thread nD τ).loc main_arg0)) (m ((c : Thread nD τ).loc main_arg1)) (m ((c : Thread nD τ).loc main_arg7)) (m ((c : Thread nD τ).loc main_arg8))) := by
  unfold gsum xs xt
  rw [proj_eq_v4, proj_eq_v9]
  rfl

end Cert.KernelIdeal.NodeRef

end
-- ==== Proof.RefRead.lean ====
/-
  The reference at an entry of its result.

  Entry (e, j) of the reference is ∑ k₁ < 64, gelu(z[e, k₁]) · W1ᵀ[k₁, j] + b1[j], where the pre-activation
  z[e, k₁] = ((∑ k₂ < 64, attr[e, k₂] · Weᵀ[k₂, k₁] + be[k₁]) + gathered source[e, k₁]) + gathered target[e, k₁],
  and the reference spells the cube inside gelu as (z · z) · z where the kernel spells it z · (z · z): the same number,
  multiplication on the extended reals being commutative.
-/
import proofs.«163496_j81973745812097_2_alg».proof.Proof.Gen.ReferenceIdeal.Read
import proofs.«163496_j81973745812097_2_alg».proof.Proof.EdgeFuse
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem
open Cert.KernelIdeal.EdgeFuse (gelu)

/-- The reference's spelling of the activation is the kernel's. -/
theorem gelu_ref (z : Ideal .f32) :
    z * (Ideal.ofBits .f32 0x3F000000#32 * (Ideal.ofBits .f32 0x3F800000#32
      + Ideal.tanh (Ideal.ofBits .f32 0x3F4C422A#32 * (z + Ideal.ofBits .f32 0x3D372713#32 * (z * z * z))))) = gelu z := by
  unfold gelu; rw [mul_comm (z * z) z]

variable (x0 : (⟨S50000x128, .f32⟩ : BufTy).Contents (Elt Ideal)) (x1 : (⟨S2x1000000, .i32⟩ : BufTy).Contents (Elt Ideal)) (x2 : (⟨S1000000x64, .f32⟩ : BufTy).Contents (Elt Ideal)) (x3 : (⟨S64x64, .f32⟩ : BufTy).Contents (Elt Ideal)) (x4 : (⟨S64, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal))

/-- A pre-activation of the reference at an entry. -/
theorem v34_at (e : Fin 1000000) (k1 : Fin 64) :
    val_main_v34 (F := Ideal) x0 x1 x2 x3 x4 x5 x6 x7 x8 (ix2 e k1)
      = (((∑ k2 : Fin 64, x2 (ix2 e k2) * val_main_v10 (F := Ideal) x3 (ix2 k2 k1)) + x4 (ix1 k1))
          + val_main_v23 (F := Ideal) x0 x1 x5 x6 (ix2 e k1)) + val_main_v33 (F := Ideal) x0 x1 x7 x8 (ix2 e k1) := by
  rw [val_main_v34_apply, val_main_v24_apply, val_main_v14_apply, val_main_v11_apply, val_main_v13_apply, val_main_v12_apply]
  simp only [Ideal.addf_def]
  refine congrArg₂ (· + ·) (congrArg₂ (· + ·) (congrArg₂ (· + ·) (Finset.sum_congr rfl fun k2 _ =>
    congrArg₂ (· * ·) (congrArg x2 ?_) (congrArg (val_main_v10 (F := Ideal) x3) ?_)) (congrArg x4 ?_)) rfl) rfl
  · exact (funext fun a => Fin.ext (by match a with | ⟨0, _⟩ => rfl | ⟨1, _⟩ => rfl))
  · exact (funext fun a => Fin.ext (by match a with | ⟨0, _⟩ => rfl | ⟨1, _⟩ => rfl))
  · exact (funext fun a => Fin.ext (by match a with | ⟨0, _⟩ => rfl))

/-- The reference's result at an entry. -/
theorem out_at (e : Fin 1000000) (j : Fin 64) :
    val_main_v52 (F := Ideal) x0 x1 x2 x3 x4 x5 x6 x7 x8 x9 x10 (ix2 e j)
      = (∑ k1 : Fin 64, gelu ((((∑ k2 : Fin 64, x2 (ix2 e k2) * val_main_v10 (F := Ideal) x3 (ix2 k2 k1)) + x4 (ix1 k1))
          + val_main_v23 (F := Ideal) x0 x1 x5 x6 (ix2 e k1)) + val_main_v33 (F := Ideal) x0 x1 x7 x8 (ix2 e k1)) * val_main_v48 (F := Ideal) x9 (ix2 k1 j)) + x10 (ix1 j) := by
  rw [val_main_v52_apply, val_main_v49_apply, val_main_v51_apply, val_main_v50_apply]
  simp only [Ideal.addf_def]
  refine congrArg₂ (· + ·) (Finset.sum_congr rfl fun k1 _ => congrArg₂ (· * ·) ?_ (congrArg (val_main_v48 (F := Ideal) x9) ?_)) (congrArg x10 ?_)
  · rw [show lidx_main_v49 (ix2 e j) k1 = ix2 e k1 from (funext fun a => Fin.ext (by match a with | ⟨0, _⟩ => rfl | ⟨1, _⟩ => rfl))]
    rw [val_main_v47_apply, val_main_v46_apply, val_main_v45_apply, val_main_cst_5_apply, val_main_v44_apply, val_main_v43_apply,
      val_main_cst_4_apply, val_main_v42_apply, val_main_v41_apply, val_main_v40_apply, val_main_cst_3_apply, val_main_v39_apply,
      val_main_v38_apply, val_main_v37_apply, val_main_cst_apply, val_main_v36_apply, val_main_v35_apply, v34_at]
    simp only [Ideal.mulf_def, Ideal.addf_def, Ideal.hostUnary_tanh_def, Ideal.ofBits_def]
    exact gelu_ref _
  · exact (funext fun a => Fin.ext (by match a with | ⟨0, _⟩ => rfl | ⟨1, _⟩ => rfl))
  · exact (funext fun a => Fin.ext (by match a with | ⟨0, _⟩ => rfl))

end Cert.ReferenceIdeal.RefValue

end
-- ==== Proof.Bridge.lean ====
/-
  The kernel's result is the reference's, entry by entry.

  Entry (e, j) of the unpacked result is entry (e / 2, 64 (e mod 2) + j) of the edge call's packed output. Its 128-term sum
  against column 64 (e mod 2) + j of the block-diagonal second weight keeps the 64 terms of edge e's own half of the row,
  and in each of those the 128-term sum against the block-diagonal first weight keeps edge e's attributes; the doubled
  biases read the biases. What is left is ∑ k₁ < 64, gelu(z[e, k₁]) · W1ᵀ[k₁, j] + b1[j] with
  z = (attr · Weᵀ + be) + (source + target), and the reference has z = ((attr · Weᵀ + be) + source) + target: addition on the
  extended reals is associative, so the two are equal with no finiteness assumed.
-/
import proofs.«163496_j81973745812097_2_alg».proof.Proof.HostReads
import proofs.«163496_j81973745812097_2_alg».proof.Proof.EdgeFuse
import proofs.«163496_j81973745812097_2_alg».proof.Proof.Packing
import proofs.«163496_j81973745812097_2_alg».proof.Proof.NodeRef
import proofs.«163496_j81973745812097_2_alg».proof.Proof.RefRead

set_option maxRecDepth 16384

noncomputable section

namespace Cert.KernelIdeal.Bridge

open Cert.KernelIdeal Cert.KernelIdeal.Gen Cert.KernelIdeal.HostReads Cert.KernelIdeal.EdgeFuse Cert.KernelIdeal.Packing
open Idealize.ShloMosaic Idealize.ShloMosaic.TcCoe Idealize.ShloMosaic.ValueIdx Idealize.SL.Sem

section Unpacked

variable (ea G : FVec Ideal S1000000x64 .f32) (WeT W1T : FVec Ideal S64x64 .f32) (be b1 : FVec Ideal S64 .f32)

/-- The fused update of ONE edge: entry (e, j) over the unpacked arrays. -/
def rowAt (e : Fin 1000000) (j : Fin 64) : Ideal .f32 :=
  (∑ k1 : Fin 64, gelu (((∑ k2 : Fin 64, ea (ix2 e k2) * WeT (ix2 k2 k1)) + be (ix1 k1)) + G (ix2 e k1)) * W1T (ix2 k1 j)) + b1 (ix1 j)

/-- The first half of packed row `p` is the update of edge `2 p`. -/
theorem fuse_even (p : Fin 500000) (e : Fin 1000000) (he : e.val = 2 * p.val) (j : Fin 64) :
    fuseAt (shapeCast S500000x128 ea shapeCasts_S1000000x64_S500000x128) (shapeCast S500000x128 G shapeCasts_S1000000x64_S500000x128)
      (blockDiag WeT) (doubled be) (blockDiag W1T) (doubled b1) p (lo j) = rowAt ea G WeT W1T be b1 e j := by
  unfold fuseAt rowAt
  rw [bd_sum_lo, doubled_lo]
  refine congrArg₂ (· + ·) (Finset.sum_congr rfl fun k1 _ => congrArg₂ (· * ·) (congrArg gelu ?_) rfl) rfl
  rw [bd_sum_lo, doubled_lo, pack_lo G p k1 e he]
  refine congrArg₂ (· + ·) (congrArg₂ (· + ·) (Finset.sum_congr rfl fun k2 _ => congrArg₂ (· * ·) (pack_lo ea p k2 e he) rfl) rfl) rfl

/-- The second half of packed row `p` is the update of edge `2 p + 1`. -/
theorem fuse_odd (p : Fin 500000) (e : Fin 1000000) (he : e.val = 2 * p.val + 1) (j : Fin 64) :
    fuseAt (shapeCast S500000x128 ea shapeCasts_S1000000x64_S500000x128) (shapeCast S500000x128 G shapeCasts_S1000000x64_S500000x128)
      (blockDiag WeT) (doubled be) (blockDiag W1T) (doubled b1) p (hi j) = rowAt ea G WeT W1T be b1 e j := by
  unfold fuseAt rowAt
  rw [bd_sum_hi, doubled_hi]
  refine congrArg₂ (· + ·) (Finset.sum_congr rfl fun k1 _ => congrArg₂ (· * ·) (congrArg gelu ?_) rfl) rfl
  rw [bd_sum_hi, doubled_hi, pack_hi G p k1 e he]
  refine congrArg₂ (· + ·) (congrArg₂ (· + ·) (Finset.sum_congr rfl fun k2 _ => congrArg₂ (· * ·) (pack_hi ea p k2 e he) rfl) rfl) rfl

/-- The packed output at the position of entry (e, j) is the update of edge `e`. -/
theorem fuse_at (e : Fin 1000000) (j : Fin 64) :
    fuse (shapeCast S500000x128 ea shapeCasts_S1000000x64_S500000x128) (shapeCast S500000x128 G shapeCasts_S1000000x64_S500000x128)
      (blockDiag WeT) (doubled be) (blockDiag W1T) (doubled b1)
      (ix2 (⟨e.val / 2, by have := e.isLt; omega⟩ : Fin 500000) (⟨64 * (e.val % 2) + j.val, by have := j.isLt; omega⟩ : Fin 128))
      = rowAt ea G WeT W1T be b1 e j := by
  show fuseAt _ _ _ _ _ _ (⟨e.val / 2, by have := e.isLt; omega⟩ : Fin 500000) (⟨64 * (e.val % 2) + j.val, by have := j.isLt; omega⟩ : Fin 128) = _
  rcases Nat.mod_two_eq_zero_or_one e.val with h | h
  · rw [show (⟨64 * (e.val % 2) + j.val, by have := j.isLt; omega⟩ : Fin 128) = lo j from Fin.ext (by show 64 * (e.val % 2) + j.val = j.val; omega)]
    exact fuse_even ea G WeT W1T be b1 _ e (by show e.val = 2 * (e.val / 2); omega) j
  · rw [show (⟨64 * (e.val % 2) + j.val, by have := j.isLt; omega⟩ : Fin 128) = hi j from Fin.ext (by show 64 * (e.val % 2) + j.val = 64 + j.val; omega)]
    exact fuse_odd ea G WeT W1T be b1 _ e (by show e.val = 2 * (e.val / 2) + 1; omega) j

end Unpacked

variable (m : (ℓ : Loc nD τ sig) → Buf (Elt Ideal) ℓ) (ρ : Dev nD → PrngReg)

/-- THE RESULT: what the result buffer holds at the last boundary is the reference's value of the launch arrays. -/
theorem result_eq (c : Dev nD) :
    W5 m ρ c (Proc.devRef .tc main_v41)
      = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W5_result, EdgeFuse.final6 (V3 m ρ) c, V3_v38, V3_v39, V3_v29, V3_v35, V3_v33, V3_v37, NodeRef.gsum_eq]
  funext i
  obtain ⟨e, j, rfl⟩ : ∃ (e : Fin 1000000) (j : Fin 64), i = ix2 e j := ⟨i 0, i 1, eq_ix2 i⟩
  rw [Cert.ReferenceIdeal.RefValue.out_at, unpack, fuse_at]
  unfold rowAt
  refine congrArg₂ (· + ·) (Finset.sum_congr rfl fun k1 _ => congrArg₂ (· * ·) (congrArg gelu ?_) rfl) rfl
  exact (add_assoc _ _ _).symm

end Cert.KernelIdeal.Bridge

end
-- ==== Proof.lean ====
/-
  The certificate of the edge update: a node projection and a fused, lane-packed edge kernel against the plain reference.

  The kernel program projects the node features twice on the device (features × transposed weight + bias, ten blocks of
  5000 rows), gathers and adds the projected source and target rows on the host, and runs the edge update on the device
  over arrays that hold two edges per 128-wide row, with each 64 × 64 weight placed twice on the diagonal of a 128 × 128
  matrix and each bias laid twice end to end (125 blocks of 4000 packed rows); a last reshape unpacks the result. The
  reference computes, for every edge e and output column j,
      ∑ k₁ < 64, gelu(((∑ k₂ < 64, attr[e, k₂] · We[k₁, k₂] + be[k₁]) + xs[src e, k₁]) + xt[tgt e, k₁]) · W1[j, k₁] + b1[j].
  On the extended reals the kernel's value is the same number: a product with the zero off-diagonal blocks is zero
  whatever the other factor, a sum of zeros is zero, the roundings to bf16 are the identity, and the two programs
  differ otherwise only in the grouping of one sum and the order of one product. The precondition (finite inputs) is
  not used by the value argument.

  The three frames: the two kernel programs' by their generated frame certificates, the reference's by its generated
  run with the result dropped. The idealization rewrote no operation, so its claim is trivial.
-/
import proofs.«163496_j81973745812097_2_alg».proof.Defs
import proofs.«163496_j81973745812097_2_alg».proof.Proof.Gen.Kernel
import proofs.«163496_j81973745812097_2_alg».proof.Proof.Gen.Kernel.Frame
import proofs.«163496_j81973745812097_2_alg».proof.Proof.Gen.KernelIdeal
import proofs.«163496_j81973745812097_2_alg».proof.Proof.Gen.KernelIdeal.Frame
import proofs.«163496_j81973745812097_2_alg».proof.Proof.Gen.ReferenceIdeal
import proofs.«163496_j81973745812097_2_alg».proof.Proof.Gen.ReferenceIdeal.Run
import proofs.«163496_j81973745812097_2_alg».proof.Proof.Gen.ReferenceIdeal.Read
import proofs.«163496_j81973745812097_2_alg».proof.Proof.Gen.Pre_finite_inputs
import proofs.«163496_j81973745812097_2_alg».proof.Proof.KernelRun
import proofs.«163496_j81973745812097_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's value of the launch arrays in their result buffers: the kernel's
    by its run and the entry-by-entry bridge, the reference's by its run, the arguments' agreement rewritten. -/
theorem algebraic : Cert.algebraic_KernelIdeal_ReferenceIdeal := by
  intro m ρ m' ρ' _ hagree
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Bridge.result_eq m ρ c), (h c).2⟩) (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v52_eq]
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
